-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel

variable [Facts]

def fn {F : FTy → Type} [FloatOps F] (main_arg0 : FVec F S8x2048x128 .f32) (main_arg1 : FVec F S8x2048x128 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  main_v8
-- ==== Kernel.lean ====
abbrev S8x2048x128 : Shape := ⟨3, ![8, 2048, 128]⟩
abbrev S8x2048x2048 : Shape := ⟨3, ![8, 2048, 2048]⟩
abbrev S1x1024x128 : Shape := ⟨3, ![1, 1024, 128]⟩
abbrev S1x2048x128 : Shape := ⟨3, ![1, 2048, 128]⟩
abbrev S1x1024x2048 : Shape := ⟨3, ![1, 1024, 2048]⟩
abbrev S2048x128 : Shape := ⟨2, ![2048, 128]⟩
abbrev S2048 : Shape := ⟨1, ![2048]⟩
abbrev S2048x1 : Shape := ⟨2, ![2048, 1]⟩
abbrev S1024x128 : Shape := ⟨2, ![1024, 128]⟩
abbrev S1024 : Shape := ⟨1, ![1024]⟩
abbrev S1024x1 : Shape := ⟨2, ![1024, 1]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x2048, .f32⟩
  | .local _ .vmem, ⟨0, _⟩ => ⟨S1x1024x128, .f32⟩
  | .local _ .vmem, ⟨1, _⟩ => ⟨S1x1024x128, .f32⟩
  | .local _ .vmem, ⟨2, _⟩ => ⟨S1x2048x128, .f32⟩
  | .local _ .vmem, ⟨3, _⟩ => ⟨S1x2048x128, .f32⟩
  | .local _ .vmem, ⟨4, _⟩ => ⟨S1x1024x2048, .f32⟩
  | .local _ .vmem, ⟨5, _⟩ => ⟨S1x1024x2048, .f32⟩
  | .local _ .vmem, ⟨6, _⟩ => ⟨S2048x128, .bf16⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S2048x128_S2048 : S2048x128.Reduces [1] S2048
  shapeCasts_S2048_S2048x1 : S2048.ShapeCasts S2048x1
  broadcasts_S2048x1_S2048x128 : S2048x1.Broadcasts S2048x128
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  reduces_S1024x128_S1024 : S1024x128.Reduces [1] S1024
  shapeCasts_S1024_S1024x1 : S1024.ShapeCasts S1024x1
  broadcasts_S1024x1_S1024x128 : S1024x1.Broadcasts S1024x128
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S8x2048x128.size a
  hwx0_0 : ∀ i : grid0.Coords, EltTy.bits .f32 = 32 ∨ (Rect.block (s := S8x2048x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x128.size a
  hwx0_1 : ∀ i : grid0.Coords, EltTy.bits .f32 = 32 ∨ (Rect.block (s := S8x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S8x2048x2048.size a
  hwx0_2 : ∀ i : grid0.Coords, EltTy.bits .f32 = 32 ∨ (Rect.block (s := S8x2048x2048) S1x1024x2048.size (cc0_transform_2 i) (hinb0_2 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S_ : Shape := ⟨0, ![]⟩
abbrev S8x2048 : Shape := ⟨2, ![8, 2048]⟩
abbrev S8x2048x1 : Shape := ⟨3, ![8, 2048, 1]⟩
abbrev S8x2048x2048 : Shape := ⟨3, ![8, 2048, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S_, .f32⟩
  | .hbm, ⟨7, _⟩ => ⟨S8x2048x1, .f32⟩
  | .hbm, ⟨8, _⟩ => ⟨S8x2048x1, .f32⟩
  | .hbm, ⟨9, _⟩ => ⟨S8x2048x1, .f32⟩
  | .hbm, ⟨10, _⟩ => ⟨S8x2048x128, .f32⟩
  | .hbm, ⟨11, _⟩ => ⟨S8x2048x128, .f32⟩
  | .hbm, ⟨12, _⟩ => ⟨S8x2048x128, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x128, .f32⟩
  | .hbm, ⟨21, _⟩ => ⟨S8x2048x128, .f32⟩
  | .hbm, ⟨22, _⟩ => ⟨S8x2048x2048, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S8x2048x128_S8x2048_d2 : S8x2048x128.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x128_0_1_2 : S8x2048x1.BroadcastsInDim S8x2048x128 (![0, 1, 2] : Fin 3 → Fin S8x2048x128.rank)
  dot_S8x2048x128_S8x2048x128_S8x2048x2048_2_2_1_1_0_0_wf : DotDims.WF S8x2048x128 S8x2048x128 S8x2048x2048 [2] [2] [1] [1] [0] [0]

variable [Facts₀]

def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf

class Facts : Prop extends Facts₀ where

variable [Facts]
-- ==== Proof.Pieces.lean ====
/-
  What one run of the kernel body leaves behind, as values, in each of its two control cases.

  The body normalises its block of 1024 rows of the first argument and multiplies it with the scratch, which holds the
  2048 normalised rows of the second argument's matrix for the current batch. The scratch is refilled only at the first
  of a batch's two row blocks:
    * there (case A) the scratch ends holding the normalised rows of the second argument's block, and the output block is
      the product of the normalised first block with exactly those rows (the body reads back what it has just stored);
    * at the other row block (case B) the scratch is left as it was found, and the output block is the product of the
      normalised first block with whatever the scratch held.
  Each statement holds for any float instance: it only says which pure function of the loaded blocks each store wrote.
-/
import proofs.«113276_j15530601742895_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- A store or load at offset (0, 0) of a rank-2 buffer starts at its origin. -/
theorem origin2 : (![0, 0] : Fin 2 → Nat) = fun _ => 0 := funext fun a => by fin_cases a <;> rfl
/-- The same at rank 3. -/
theorem origin3 : (![0, 0, 0] : Fin 3 → Nat) = fun _ => 0 := funext fun a => by fin_cases a <;> rfl

/-- Case A, the scratch: it ends holding the normalised rows of the second argument's block `x1`. -/
theorem scratch_A (c : Dev nD) (i : grid0.Coords) (a2 : Memref sig .tc .vmem S1x1024x128 .f32) (h2 : a2.IsWhole)
    (a3 : Memref sig .tc .vmem S1x2048x128 .f32) (h3 : a3.IsWhole) (a4 : Memref sig .tc .vmem S1x1024x2048 .f32) (h4 : a4.IsWhole)
    (a5 : Memref sig .tc .vmem S2048x128 .bf16) (h5 : a5.IsWhole) (hc : cond0_0 i)
    (x0 : Vec F S1x1024x128 .f32) (x1 : Vec F S1x2048x128 .f32) :
    sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero (S := S2048x128) origin2]
  simp only [View.readAt_eq_ld, h3.read_unread, View.ld_unit_zero (S := S1x2048x128) origin3]

/-- Case A, the output block: the normalised rows of `x0` against the normalised rows of `x1` just stored. -/
theorem out_A (c : Dev nD) (i : grid0.Coords) (a2 : Memref sig .tc .vmem S1x1024x128 .f32) (h2 : a2.IsWhole)
    (a3 : Memref sig .tc .vmem S1x2048x128 .f32) (h3 : a3.IsWhole) (a4 : Memref sig .tc .vmem S1x1024x2048 .f32) (h4 : a4.IsWhole)
    (a5 : Memref sig .tc .vmem S2048x128 .bf16) (h5 : a5.IsWhole) (hc : cond0_0 i)
    (x0 : Vec F S1x1024x128 .f32) (x1 : Vec F S1x2048x128 .f32) :
    out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero (S := S1x1024x2048) origin3, View.readCov_unit_zero (S := S2048x128) _ origin2]
  simp only [View.readAt_eq_ld, h2.read_unread, h3.read_unread, View.ld_unit_zero (S := S1x1024x128) origin3,
    View.ld_unit_zero (S := S1x2048x128) origin3]

/-- Case B, the output block: the normalised rows of `x0` against what the scratch held, `xs0`. -/
theorem out_B (c : Dev nD) (i : grid0.Coords) (a2 : Memref sig .tc .vmem S1x1024x128 .f32) (h2 : a2.IsWhole)
    (a3 : Memref sig .tc .vmem S1x2048x128 .f32) (h3 : a3.IsWhole) (a4 : Memref sig .tc .vmem S1x1024x2048 .f32) (h4 : a4.IsWhole)
    (a5 : Memref sig .tc .vmem S2048x128 .bf16) (h5 : a5.IsWhole) (hc : ¬cond0_0 i)
    (x0 : Vec F S1x1024x128 .f32) (x1 : Vec F S1x2048x128 .f32) (xs0 : Vec F S2048x128 .bf16) :
    out0_B_2 c i a2 h2 a3 h3 a4 h4 a5 h5 hc x0 x1 xs0 = k0_pay2 x0 xs0 := by
  unfold out0_B_2
  rw [View.read_writes_eq_canon _ _ _ (cover0_B_2 c i a2 h2 a3 h3 a4 h4 a5 h5 hc x0 x1 xs0)]
  unfold kernelRun0_B
  dsimp only
  rw [View.canon_unit_zero (S := S1x1024x2048) origin3]
  simp only [View.readAt_eq_ld, h2.read_unread, h5.read_unread, View.ld_unit_zero (S := S1x1024x128) origin3,
    View.ld_unit_zero (S := S2048x128) origin2]

end Cert.KernelIdeal.Pieces

end
-- ==== Proof.Carry.lean ====
/-
  What the output block and the scratch hold after each grid point, in terms of the body's two stored values.

  The 16 grid points run batch by batch, two row blocks per batch: point t works on batch t / 2 and row block t % 2.
  The scratch is refilled exactly at the even points (a batch's first row block). So
    * after an even point the scratch holds the stored value of that point's block of the second argument, and the
      output block is the product of the first argument's block with that same value;
    * after an odd point the scratch still holds what the point before left, and the output block is the product of the
      first argument's block with that.
  These hold at any float instance.
-/
import proofs.«113276_j15530601742895_2_alg».proof.Proof.Gen.KernelIdeal.Frame
import proofs.«113276_j15530601742895_2_alg».proof.Proof.Pieces

noncomputable section

open Idealize.ShloMosaic Idealize.ShloMosaic.TcCoe Idealize.SL.Sem

namespace Cert.KernelIdeal.Carry

open Cert.KernelIdeal Cert.KernelIdeal.Gen

variable {F : FTy → Type} [FloatOps F]
variable (m : (ℓ : Loc nD τ sig) → Buf (Elt F) ℓ)

/-- After an even point the scratch holds the normalised rows of that point's block of the second argument. -/
theorem scratch_even (c : Dev nD) (t : Fin cfg0.N) (h0 : t.val % 2 = 0) :
    (outsAt0 m c t.val t.isLt).2 = k0_pay1 (iblk m c 1 t) := by
  rw [outsAt0_A m c t h0]
  dsimp only
  exact Pieces.scratch_A c (grid0.coords t) (ms0_0 t) (hs0_0 t) (ms0_1 t) (hs0_1 t) (ms0_2 t) (hs0_2 t) scM0_0
    (Memref.isWhole_whole _) ((hcond0_0 t).mpr h0) (iblk m c 0 t) (iblk m c 1 t)

/-- After an even point the output block is the product with the rows just stored. -/
theorem out_even (c : Dev nD) (t : Fin cfg0.N) (h0 : t.val % 2 = 0) :
    (outsAt0 m c t.val t.isLt).1 = k0_pay2 (iblk m c 0 t) (k0_pay1 (iblk m c 1 t)) := by
  rw [outsAt0_A m c t h0]
  dsimp only
  exact Pieces.out_A c (grid0.coords t) (ms0_0 t) (hs0_0 t) (ms0_1 t) (hs0_1 t) (ms0_2 t) (hs0_2 t) scM0_0
    (Memref.isWhole_whole _) ((hcond0_0 t).mpr h0) (iblk m c 0 t) (iblk m c 1 t)

/-- After an odd point the scratch holds what the point before left. -/
theorem scratch_odd (c : Dev nD) (t : Fin cfg0.N) (h0 : ¬t.val % 2 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

/-- After an odd point the output block is the product with what the point before left in the scratch. -/
theorem out_odd (c : Dev nD) (t : Fin cfg0.N) (h0 : ¬t.val % 2 = 0) :
    (outsAt0 m c t.val t.isLt).1
      = k0_pay2 (iblk m c 0 t) (outsAt0 m c (t.val - 1) (Nat.lt_of_le_of_lt (Nat.sub_le _ _) t.isLt)).2 := by
  rw [outsAt0_B m c t h0]
  dsimp only
  exact Pieces.out_B c (grid0.coords t) (ms0_0 t) (hs0_0 t) (ms0_1 t) (hs0_1 t) (ms0_2 t) (hs0_2 t) scM0_0
    (Memref.isWhole_whole _) (fun h => h0 ((hcond0_0 t).mp h)) (iblk m c 0 t) (iblk m c 1 t)
    (outsAt0 m c (t.val - 1) (Nat.lt_of_le_of_lt (Nat.sub_le _ _) t.isLt)).2

end Cert.KernelIdeal.Carry

end
-- ==== Proof.LibKeepdims.lean ====
/-
  Layout facts for a sum taken along the last axis with the axis kept: a vector of `a` entries recast as a column
  `[a, 1]`, a column spread across `b` lanes, and a one-entry vector spread down a column. Each says which entry of the
  operand an entry of the result reads. General over the extents.
-/
import Idealize.ShloMosaic.Lib.Pipeline.Value
import Idealize.ShloMosaic.Lib.ValueIdx
import Idealize.ShloMosaic.Lib.ValueLayout

namespace Idealize.ShloMosaic.Keepdims

open Idealize.ShloMosaic Idealize.ShloMosaic.ValueIdx

variable {α : Type}

/-- A vector `[a]` recast as a column `[a, 1]` reads, at `(i, 0)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread across `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` recast as a row and spread down `a` rows reads, at `(p, c)`, entry `c`. -/
theorem broadcastTo_row_of_vec_apply {a b : ℕ} (x : (⟨1, ![b]⟩ : Shape).Idx → α) (hc : (⟨1, ![b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ x hc) h (ix2 p c) = x (ix1 c) :=
  (broadcastTo_1b_ab_apply _ h p c).trans (shapeCast_a_1a_apply x hc 0 c)

end Idealize.ShloMosaic.Keepdims
-- ==== Proof.LibRowNormalize.lean ====
/-
  Scaling every row of a matrix to unit length, read at an entry.

  For a block v of `a` rows of length `b` the computation is: square every entry, sum each row's squares along the lanes,
  keep the sums as a column, bound them below by a fixed float (given by its word `e`), take the reciprocal square root,
  spread the column back across the lanes and multiply. At the extended reals entry (r, d) of the result is

      v(r, d) · rsqrt (max (Σ_k v(r, k)², ε)),

  the lane sum being a plain finite sum (it starts from the neutral element of addition). General over the extents and over
  the bound's word; nothing here depends on a program.
-/
import Idealize.ShloMosaic.Lib.ValueIdx
import Idealize.ShloMosaic.PureOps.Ideal.Laws
import proofs.«113276_j15530601742895_2_alg».proof.Proof.LibKeepdims

noncomputable section

open scoped BigOperators

namespace RowNormalize

open Idealize.ShloMosaic Idealize.ShloMosaic.ValueIdx

/-- The index the lane sum of row `r` reads at lane `k` is (r, k). -/
theorem lift_row {a b : ℕ} (hred : (⟨2, ![a, b]⟩ : Shape).Reduces [1] ⟨1, ![a]⟩) (r : Fin a) (k : Fin b) :
    hred.lift (ix1 r) k = ix2 r k :=
  funext fun ax => Fin.ext (by
    match ax with
    | ⟨0, _⟩ => rfl
    | ⟨1, _⟩ => rfl)

/-- A row's lane sum of squares, at the extended reals: the finite sum of the squares of the row's entries. -/
theorem sumSquares_apply {a b : ℕ} (v : FVec Ideal ⟨2, ![a, b]⟩ .f32)
    (hred : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ (mulf v v) 0x00000000#32 hred hφ hacc (ix1 r) = ∑ k : Fin b, v (ix2 r k) * v (ix2 r k) := by
  refine (Ideal.multiReduction_add_single (mulf v v) 0x00000000#32 hred hφ hacc (ix1 r)).trans ?_
  refine Finset.sum_congr rfl fun k _ => ?_
  show v (hred.lift (ix1 r) k) * v (hred.lift (ix1 r) k) = _
  rw [lift_row hred r k]

/-- The row normalisation read at entry (r, d). -/
theorem normalize_apply {a b : ℕ} (e : BitVec 32) (v : FVec Ideal ⟨2, ![a, b]⟩ .f32)
    (hred : (⟨2, ![a, b]⟩ : Shape).Reduces [1] ⟨1, ![a]⟩) (hφ : FKind.Formats .f32)
    (hacc : (0x00000000#32 : BitVec 32) = FKind.add.neutral .f32 hφ)
    (hcast : (⟨1, ![a]⟩ : Shape).ShapeCasts ⟨2, ![a, 1]⟩) (hbc : (⟨2, ![a, 1]⟩ : Shape).Broadcasts ⟨2, ![a, b]⟩)
    (r : Fin a) (d : Fin b) :
    mulf v (broadcastTo ⟨2, ![a, b]⟩ (rsqrt (maximumf
        (shapeCast ⟨2, ![a, 1]⟩ (multiReduction .add [1] ⟨1, ![a]⟩ (mulf v v) 0x00000000#32 hred hφ hacc) hcast)
        (broadcast ⟨2, ![a, 1]⟩ (Scalar.ofBits (F := Ideal) .f32 e)))) hbc) (ix2 r d)
      = v (ix2 r d) * Ideal.rsqrt (max (∑ k : Fin b, v (ix2 r k) * v (ix2 r k)) (Ideal.ofBits .f32 e)) := by
  rw [mulf_apply, Keepdims.broadcastTo_a1_ab_apply]
  refine congrArg (v (ix2 r d) * ·) ?_
  show Ideal.rsqrt (max (shapeCast ⟨2, ![a, 1]⟩ (multiReduction .add [1] ⟨1, ![a]⟩ (mulf v v) 0x00000000#32 hred hφ hacc) hcast
    (ix2 r (0 : Fin 1))) (Ideal.ofBits .f32 e)) = _
  rw [Keepdims.shapeCast_a_a1_apply, sumSquares_apply]

end RowNormalize

end
-- ==== Proof.LibRowsDot.lean ====
/-
  A matrix product whose dimension numbers contract the LAST axis of BOTH operands, with no batch axis — rows of the left
  operand against rows of the right one, x · wᵀ for x : [M, K] and w : [N, K] — read at an index. For such a record the left
  operand is read at (row, k) and the right at (column, k), so at the extended reals a product into the zero accumulator is
  the sum over k of x(row, k) · w(column, k), in any order and grouping (addition of extended reals is commutative and
  associative). Nothing here depends on a program: the record's coordinate facts are hypotheses, which each use site proves
  from its own record by unfolding.
-/
import Idealize.ShloMosaic.Lib.ValueIdx
import Idealize.ShloMosaic.PureOps.Ideal.Laws

noncomputable section

open scoped BigOperators

namespace RowsDot

open Idealize.ShloMosaic Idealize.ShloMosaic.ValueIdx

/-- The dimension numbers `D` are those of a rows-against-rows [M, K] × [N, K] product: one contracted axis of extent K;
    the left operand read at (row of the result, contraction position) and the right at (column of the result,
    contraction position). -/
structure IsRowsByRows {M K N : Nat} (D : DotDims ⟨2, ![M, K]⟩ ⟨2, ![N, K]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (i 1).val
  rhs1 : ∀ (i : (⟨2, ![M, N]⟩ : Shape).Idx) (q : D.contr.Idx), (D.rhsIdx i q 1).val = (q ⟨0, by omega⟩).val

variable {M K N : Nat} {φ₁ φ₂ : FTy}

/-- The left operand's index at result index (r, j) and contraction position k is (r, k). -/
theorem IsRowsByRows.lhsIdx_eq {D : DotDims ⟨2, ![M, K]⟩ ⟨2, ![N, K]⟩ ⟨2, ![M, N]⟩} (h : IsRowsByRows D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

/-- The right operand's index at result index (r, j) and contraction position k is (j, k). -/
theorem IsRowsByRows.rhsIdx_eq {D : DotDims ⟨2, ![M, K]⟩ ⟨2, ![N, K]⟩ ⟨2, ![M, N]⟩} (h : IsRowsByRows D) (r : Fin M) (j : Fin N) (k : Fin K) :
    D.rhsIdx (ix2 r j) ((contrEquiv1 D K h.rank h.size).symm k) = ix2 j k :=
  funext fun a => Fin.ext (by
    match a with
    | ⟨0, _⟩ => exact h.rhs0 _ _
    | ⟨1, _⟩ => exact (h.rhs1 _ _).trans (contrEquiv1_symm_val D K h.rank h.size k))

/-- A rows-against-rows product into the zero accumulator, at the extended reals, read at (r, j): the sum over the
    contracted axis of x(r, k) · w(j, k). -/
theorem matmul_zero_apply (D : DotDims ⟨2, ![M, K]⟩ ⟨2, ![N, K]⟩ ⟨2, ![M, N]⟩) (h : IsRowsByRows D) (prec : Option ContractPrecision)
    (x : FVec Ideal ⟨2, ![M, K]⟩ φ₁) (w : FVec Ideal ⟨2, ![N, K]⟩ φ₂) (r : Fin M) (j : Fin N) :
    FloatOps.matmul D prec x w (constant (F := Ideal) ⟨2, ![M, N]⟩ .f32 0x00000000#32) (ix2 r j)
      = ∑ k : Fin K, x (ix2 r k) * w (ix2 j k) := by
  rw [Ideal.matmul_constant_zero_apply, ← Equiv.sum_comp (contrEquiv1 D K h.rank h.size).symm]
  refine Finset.sum_congr rfl fun k _ => ?_
  rw [h.lhsIdx_eq r j k, h.rhsIdx_eq r j k]

end RowsDot

end
-- ==== Proof.Payload.lean ====
/-
  The two values the kernel body stores, read at an entry, at the extended reals.

  Write unit(x)(r, d) = x(0, r, d) · rsqrt (max (Σ_k x(0, r, k)², eps)) for entry d of the unit-length row r of a block x
  holding one matrix. Then
    * what the body stores into the scratch, from the second argument's block x1, is unit(x1) at every (j, d)
      (the change of float format on the way is the identity at the extended reals);
    * what it stores into the output block, from the first argument's block x0 and the scratch's contents s, is at
      (r, j) the sum over the 128 positions k of unit(x0)(r, k) · s(j, k): the product contracts the last axis of both
      operands and starts from the zero accumulator.
-/
import proofs.«113276_j15530601742895_2_alg».proof.Proof.Gen.KernelIdeal.Skeleton
import Idealize.ShloMosaic.Lib.Pipeline.Value
import Idealize.ShloMosaic.Lib.ValueLayout
import proofs.«113276_j15530601742895_2_alg».proof.Proof.LibRowNormalize
import proofs.«113276_j15530601742895_2_alg».proof.Proof.LibRowsDot

noncomputable section

open scoped BigOperators

namespace Cert.KernelIdeal.Payload

open Cert.KernelIdeal Cert.KernelIdeal.Gen Idealize.ShloMosaic Idealize.ShloMosaic.ValueIdx

/-- Entry `d` of the unit-length row `r` of a block `x` that holds one matrix of `a` rows. -/
def unit {a : ℕ} (x : (⟨3, ![1, a, 128]⟩ : Shape).Idx → EReal) (r : Fin a) (d : Fin 128) : EReal :=
  x (ix3 (0 : Fin 1) r d)
    * Ideal.rsqrt (max (∑ k : Fin 128, x (ix3 (0 : Fin 1) r k) * x (ix3 (0 : Fin 1) r k)) (Ideal.ofBits .f32 0x322BCC77#32))

/-- The scratch's new contents at (j, d): entry d of the unit-length row j of the second argument's block. -/
theorem scratch_apply (x1 : Vec Ideal S1x2048x128 .f32) (j : Fin 2048) (d : Fin 128) :
    k0_pay1 (F := Ideal) x1 (ix2 j d) = unit x1 j d := by
  unfold k0_pay1
  refine (congrFun (shapeCast_self _ _) (ix2 j d)).trans ?_
  refine (RowNormalize.normalize_apply 0x322BCC77#32 (shapeCast S2048x128 x1 shapeCasts_S1x2048x128_S2048x128)
    reduces_S2048x128_S2048 (.inl rfl) rfl shapeCasts_S2048_S2048x1 broadcasts_S2048x1_S2048x128 j d).trans ?_
  simp only [shapeCast_1ab_ab_apply]
  rfl

/-- The product's dimension numbers contract the last axis of both operands. -/
theorem rowsByRows : RowsDot.IsRowsByRows dot_S1024x128_S2048x128_S1024x2048_1_1_0_0_n_n where
  rank := rfl
  size := rfl
  lhs0 := fun i q => by
    unfold DotDims.lhsIdx
    rw [dif_neg (show ¬(0 : Fin S1024x128.rank) ∈ dot_S1024x128_S2048x128_S1024x2048_1_1_0_0_n_n.lhsBatch by decide),
      dif_pos (show (0 : Fin S1024x128.rank) ∈ dot_S1024x128_S2048x128_S1024x2048_1_1_0_0_n_n.lhsNonContracting by decide)]
    rfl
  lhs1 := fun i q => dot_S1024x128_S2048x128_S1024x2048_1_1_0_0_n_n.lhsIdx_val_of_single rfl i q
  rhs0 := fun i q => by
    unfold DotDims.rhsIdx
    rw [dif_neg (show ¬(0 : Fin S2048x128.rank) ∈ dot_S1024x128_S2048x128_S1024x2048_1_1_0_0_n_n.rhsBatch by decide),
      dif_pos (show (0 : Fin S2048x128.rank) ∈ dot_S1024x128_S2048x128_S1024x2048_1_1_0_0_n_n.rhsNonContracting by decide)]
    rfl
  rhs1 := fun i q => dot_S1024x128_S2048x128_S1024x2048_1_1_0_0_n_n.rhsIdx_val_of_single rfl i q

/-- The output block at (r, j): the unit-length row r of the first argument's block against row j of the scratch. -/
theorem product_apply (x0 : Vec Ideal S1x1024x128 .f32) (s : FVec Ideal S2048x128 .bf16) (u : Fin 1) (r : Fin 1024) (j : Fin 2048) :
    k0_pay2 (F := Ideal) x0 s (ix3 u r j) = ∑ k : Fin 128, unit x0 r k * s (ix2 j k) := by
  unfold k0_pay2
  refine (shapeCast_ab_1ab_apply _ _ u r j).trans ?_
  refine (RowsDot.matmul_zero_apply (φ₁ := .bf16) (φ₂ := .bf16) dot_S1024x128_S2048x128_S1024x2048_1_1_0_0_n_n rowsByRows none _ s r j).trans ?_
  refine Finset.sum_congr rfl fun k _ => congrArg (· * s (ix2 j k)) ?_
  refine (RowNormalize.normalize_apply 0x322BCC77#32 (shapeCast S1024x128 x0 shapeCasts_S1x1024x128_S1024x128)
    reduces_S1024x128_S1024 (.inl rfl) rfl shapeCasts_S1024_S1024x1 broadcasts_S1024x1_S1024x128 r k).trans ?_
  simp only [shapeCast_1ab_ab_apply]
  rfl

end Cert.KernelIdeal.Payload

end
-- ==== Proof.Spec.lean ====
/-
  The function both programs compute, stated once over literal shapes and importing no program.

  For x, y : [8, 2048, 128] (a batch of 8 matrices of 2048 rows of length 128) the result is the [8, 2048, 2048] array of
  cosine similarities of rows: every row is scaled to unit length, a row's scale being
  rsqrt (max (|row|^2, eps)) with |row|^2 the sum of the squares of its 128 entries and eps one fixed positive float, and entry (b, r, j) is the inner product over the 128 positions of the
  scaled row r of x[b] with the scaled row j of y[b].
-/
import Idealize.ShloMosaic.PureOps.Ideal
import Idealize.ShloMosaic.Lib.ValueIdx

noncomputable section

open scoped BigOperators

namespace Cert.Cosine

open Idealize.ShloMosaic Idealize.ShloMosaic.ValueIdx

/-- The lower bound put under a row's squared length before the reciprocal square root is taken: the float the two
    programs share, kept as its word (it is the same word on both sides and is never evaluated). -/
def eps : EReal := Ideal.ofBits .f32 0x322BCC77#32

/-- The squared length of row `r` of matrix `b`: the sum of the squares of its 128 entries. -/
def sqLen (x : (⟨3, ![8, 2048, 128]⟩ : Shape).Idx → EReal) (b : Fin 8) (r : Fin 2048) : EReal :=
  ∑ d : Fin 128, x (ix3 b r d) * x (ix3 b r d)

/-- The factor that brings row `r` of matrix `b` to unit length: rsqrt (max (|row|^2, eps)). -/
def scale (x : (⟨3, ![8, 2048, 128]⟩ : Shape).Idx → EReal) (b : Fin 8) (r : Fin 2048) : EReal :=
  Ideal.rsqrt (max (sqLen x b r) eps)

/-- Entry `d` of the unit-length row `r` of matrix `b`. -/
def unitRow (x : (⟨3, ![8, 2048, 128]⟩ : Shape).Idx → EReal) (b : Fin 8) (r : Fin 2048) (d : Fin 128) : EReal :=
  x (ix3 b r d) * scale x b r

/-- The cosine similarity of row `r` of `x[b]` and row `j` of `y[b]`, for every `b`, `r`, `j`: the inner product of
    the two unit-length rows. -/
def cosine (x y : (⟨3, ![8, 2048, 128]⟩ : Shape).Idx → EReal) : (⟨3, ![8, 2048, 2048]⟩ : Shape).Idx → EReal :=
  fun i => ∑ d : Fin 128, unitRow x (i 0) (i 1) d * unitRow y (i 0) (i 2) d

end Cert.Cosine

end
-- ==== Proof.Blocks.lean ====
/-
  From blocks to the whole array: after the run the kernel's result array is the cosine-similarity array of its arguments.

  The 16 grid points run batch by batch, two row blocks of 1024 rows per batch: point t works on batch t / 2 and on rows
  (t % 2) · 1024 … (t % 2) · 1024 + 1023 of that batch. The first argument's window moves with the output's; the second
  argument's window shows all 2048 rows of the batch's matrix at both of the batch's points.
    * The scratch, which the body carries from point to point, holds after EVERY point the 2048 unit-length rows of the
      second argument's matrix for the point's batch: it is refilled with exactly those rows at the batch's first point and
      left alone at the second.
    * So what a point writes back is its block of the cosine array: entry (r, j) of the block is the inner product of the
      unit-length row (t % 2) · 1024 + r of the first argument's matrix t / 2 with the unit-length row j of the second's.
    * The 16 blocks tile the [8, 2048, 2048] array (the block that holds (b, r, j) is the one of point 2 b + r / 1024), so
      the array ends holding the cosine array everywhere.
-/
import proofs.«113276_j15530601742895_2_alg».proof.Proof.Gen.KernelIdeal.Value
import proofs.«113276_j15530601742895_2_alg».proof.Proof.Carry
import proofs.«113276_j15530601742895_2_alg».proof.Proof.Payload
import proofs.«113276_j15530601742895_2_alg».proof.Proof.Spec
import Idealize.ShloMosaic.Lib.Pipeline.Value
import Idealize.ShloMosaic.Lib.ValueIdx

noncomputable section

open scoped BigOperators

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable (m : (ℓ : Loc nD τ sig) → Buf (Elt Ideal) ℓ) (ρ : Dev nD → PrngReg)

/-! ## The grid -/

/-- A grid point's position is below 16. -/
theorem point_lt (t : Fin cfg0.N) : t.val < 16 := lt_of_lt_of_eq t.isLt (show cfg0.N = 16 from N_0)

/-- The batch a grid point works on. -/
def batch (t : Fin cfg0.N) : Fin 8 := ⟨t.val / 2, by have := point_lt t; omega⟩

/-- Row `r` of a grid point's block of 1024 rows, among the 2048 rows of its batch's matrix. -/
def row (t : Fin cfg0.N) (r : Fin 1024) : Fin 2048 := ⟨t.val % 2 * 1024 + r.val, by have := r.isLt; omega⟩

/-- The windows' block indices at every point, decided over the grid: the first argument's and the output's windows sit
    at (batch, row block, 0), the second argument's at (batch, 0, 0). -/
theorem index_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = t.val % 2 ∧ win0_2.index t (2 : Fin 3) = 0 :=
  (by decide +kernel : ∀ t : Fin grid0.N, _)

/-! ## The arguments and their blocks -/

/-- The first argument array as the region finds it. -/
abbrev first (c : Dev nD) : (⟨3, ![8, 2048, 128]⟩ : Shape).Idx → EReal := V m c main_arg0
/-- The second argument array as the region finds it. -/
abbrev second (c : Dev nD) : (⟨3, ![8, 2048, 128]⟩ : Shape).Idx → EReal := V m c main_arg1

/-- The first argument's block at point `t` holds rows (t % 2) · 1024 … of matrix t / 2. -/
theorem first_block (c : Dev nD) (t : Fin cfg0.N) (u : Fin 1) (r : Fin 1024) (d : Fin 128) :
    (iblk m c 0 t : Vec Ideal S1x1024x128 .f32) (ix3 u r d) = first m c (ix3 (batch t) (row t r) d) := by
  obtain ⟨e0, e1, e2, -⟩ := index_facts t
  show V m c main_arg0 (((cfg0.win 0).blk t).view.emb (ix3 u r d)) = V m c main_arg0 (ix3 (batch t) (row t r) d)
  congr 1
  funext a
  apply Fin.ext
  match a with
  | ⟨0, _⟩ => show win0_0.index t (0 : Fin 3) * 1 + 1 * u.val = t.val / 2; have := u.isLt; omega
  | ⟨1, _⟩ => show win0_0.index t (1 : Fin 3) * 1024 + 1 * r.val = t.val % 2 * 1024 + r.val; omega
  | ⟨2, _⟩ => show win0_0.index t (2 : Fin 3) * 128 + 1 * d.val = d.val; omega

/-- The second argument's block at point `t` holds all 2048 rows of matrix t / 2. -/
theorem second_block (c : Dev nD) (t : Fin cfg0.N) (u : Fin 1) (j : Fin 2048) (d : Fin 128) :
    (iblk m c 1 t : Vec Ideal S1x2048x128 .f32) (ix3 u j d) = second m c (ix3 (batch t) j d) := by
  obtain ⟨-, -, -, e0, e1, e2, -⟩ := index_facts t
  show V m c main_arg1 (((cfg0.win 1).blk t).view.emb (ix3 u j d)) = V m c main_arg1 (ix3 (batch t) j d)
  congr 1
  funext a
  apply Fin.ext
  match a with
  | ⟨0, _⟩ => show win0_1.index t (0 : Fin 3) * 1 + 1 * u.val = t.val / 2; have := u.isLt; omega
  | ⟨1, _⟩ => show win0_1.index t (1 : Fin 3) * 2048 + 1 * j.val = j.val; omega
  | ⟨2, _⟩ => show win0_1.index t (2 : Fin 3) * 128 + 1 * d.val = d.val; omega

/-- A unit-length row of a block is the unit-length row of the array's matrix the block shows: if the block's row `r` is
    row `rows r` of matrix `b` of the array, entry for entry, so is its unit-length row. -/
theorem unit_eq {a : ℕ} (x : (⟨3, ![1, a, 128]⟩ : Shape).Idx → EReal) (X : (⟨3, ![8, 2048, 128]⟩ : Shape).Idx → EReal)
    (b : Fin 8) (rows : Fin a → Fin 2048)
    (h : ∀ (r : Fin a) (d : Fin 128), x (ix3 (0 : Fin 1) r d) = X (ix3 b (rows r) d)) (r : Fin a) (d : Fin 128) :
    Payload.unit x r d = Cert.Cosine.unitRow X b (rows r) d := by
  unfold Payload.unit Cert.Cosine.unitRow Cert.Cosine.scale Cert.Cosine.sqLen Cert.Cosine.eps
  simp only [h]

/-! ## The scratch after every point -/

/-- The 2048 unit-length rows of matrix `b` of `Y`, as contents of the scratch. -/
def unitRows (Y : (⟨3, ![8, 2048, 128]⟩ : Shape).Idx → EReal) (b : Fin 8) : FVec Ideal S2048x128 .bf16 :=
  fun i => Cert.Cosine.unitRow Y b (i 0) (i 1)

/-- After an even point the scratch holds the unit-length rows of the second argument's matrix for the point's batch. -/
theorem scratch_at_even (c : Dev nD) (t : Fin cfg0.N) (h0 : t.val % 2 = 0) :
    (outsAt0 m c t.val t.isLt).2 = unitRows (second m c) (batch t) := by
  rw [Carry.scratch_even m c t h0]
  funext i
  obtain ⟨j, d, rfl⟩ : ∃ (j : Fin 2048) (d : Fin 128), i = ix2 j d := ⟨i 0, i 1, eq_ix2 i⟩
  refine (Payload.scratch_apply (iblk m c 1 t) j d).trans ?_
  exact unit_eq (iblk m c 1 t) (second m c) (batch t) id (fun r d => second_block m c t 0 r d) j d

/-- After every point the scratch holds the unit-length rows of the second argument's matrix for the point's batch: an odd
    point leaves what the even point before it stored, and the two are in the same batch. -/
theorem scratch_at (c : Dev nD) (t : Fin cfg0.N) :
    (outsAt0 m c t.val t.isLt).2 = unitRows (second m c) (batch t) := by
  by_cases h0 : t.val % 2 = 0
  · exact scratch_at_even m c t h0
  · have hlt : t.val - 1 < cfg0.N := Nat.lt_of_le_of_lt (Nat.sub_le _ _) t.isLt
    have hp : (⟨t.val - 1, hlt⟩ : Fin cfg0.N).val % 2 = 0 := by show (t.val - 1) % 2 = 0; omega
    have hb : batch ⟨t.val - 1, hlt⟩ = batch t := Fin.ext (by show (t.val - 1) / 2 = t.val / 2; omega)
    rw [Carry.scratch_odd m c t h0]
    exact (scratch_at_even m c ⟨t.val - 1, hlt⟩ hp).trans (congrArg (unitRows (second m c)) hb)

/-- So after every point the output block is the product of the first argument's block with those rows. -/
theorem out_at (c : Dev nD) (t : Fin cfg0.N) :
    (outsAt0 m c t.val t.isLt).1 = k0_pay2 (F := Ideal) (iblk m c 0 t) (unitRows (second m c) (batch t)) := by
  by_cases h0 : t.val % 2 = 0
  · rw [Carry.out_even m c t h0, ← Carry.scratch_even m c t h0, scratch_at m c t]
  · rw [Carry.out_odd m c t h0, ← Carry.scratch_odd m c t h0, scratch_at m c t]

/-! ## What a point writes back -/

/-- Entry `y` of the block point `t` computes is the cosine array at the index `i` with coordinates
    (t / 2, (t % 2) · 1024 + y₁, y₂). -/
theorem block_entry (c : Dev nD) (t : Fin cfg0.N) (y : S1x1024x2048.Idx) (i : S8x2048x2048.Idx)
    (h0 : (i 0).val = t.val / 2) (h1 : (i 1).val = t.val % 2 * 1024 + (y 1).val) (h2 : (i 2).val = (y 2).val) :
    k0_pay2 (F := Ideal) (iblk m c 0 t) (unitRows (second m c) (batch t)) y
      = Cert.Cosine.cosine (first m c) (second m c) i := by
  obtain ⟨u, r, j, rfl⟩ : ∃ (u : Fin 1) (r : Fin 1024) (j : Fin 2048), y = ix3 u r j := ⟨y 0, y 1, y 2, eq_ix3 y⟩
  obtain rfl : i = ix3 (batch t) (row t r) j := funext fun a => Fin.ext (by
    match a with
    | ⟨0, _⟩ => exact h0
    | ⟨1, _⟩ => exact h1
    | ⟨2, _⟩ => exact h2)
  refine (Payload.product_apply (iblk m c 0 t) (unitRows (second m c) (batch t)) u r j).trans ?_
  show _ = ∑ d : Fin 128, Cert.Cosine.unitRow (first m c) (batch t) (row t r) d * Cert.Cosine.unitRow (second m c) (batch t) j d
  refine Finset.sum_congr rfl fun k _ => ?_
  rw [unit_eq (iblk m c 0 t) (first m c) (batch t) (row t) (fun r d => first_block m c t 0 r d) r k]
  rfl

/-- What point `t` writes back is block `t` of the cosine array of the arguments. -/
theorem flushed_eq (c : Dev nD) (t : Fin cfg0.N) :
    (dats m 0 c).flushed 2 t
      = ((cfg0.win 2).blk t).view.read (Elt Ideal) (Cert.Cosine.cosine (first m c) (second m c)) := by
  obtain ⟨-, -, -, -, -, -, e0, e1, e2⟩ := index_facts t
  rw [Cert.KernelIdeal.Value.flushed2, out_at m c t]
  funext y
  show k0_pay2 (F := Ideal) (iblk m c 0 t) (unitRows (second m c) (batch t)) y
    = Cert.Cosine.cosine (first m c) (second m c) (((cfg0.win 2).blk t).view.emb y)
  have hy0 : (y 0).val < 1 := (y 0).isLt
  refine block_entry m c t y _ ?_ ?_ ?_
  · show win0_2.index t (0 : Fin 3) * 1 + 1 * (y 0).val = t.val / 2; omega
  · show win0_2.index t (1 : Fin 3) * 1024 + 1 * (y 1).val = t.val % 2 * 1024 + (y 1).val; omega
  · show win0_2.index t (2 : Fin 3) * 2048 + 1 * (y 2).val = (y 2).val; omega

/-! ## The blocks tile the array -/

/-- An index of the array is in point `t`'s block iff each coordinate is in the block's range on its axis. -/
theorem mem_block (t : Fin cfg0.N) (i : S8x2048x2048.Idx) :
    i ∈ ((cfg0.win 2).blk t).view.set ↔ ∀ a : Fin 3, win0_2.index t a * S1x1024x2048.size a ≤ (i a).val
      ∧ (i a).val < win0_2.index t a * S1x1024x2048.size a + S1x1024x2048.size a := by
  show i ∈ ((View.whole main_v0).slice (win0_2.rect t)).set ↔ _
  rw [View.set_slice_whole, Rect.mem_set_unit]
  exact Iff.rfl

/-- Every index (b, r, j) of the array is in the block of point 2 b + r / 1024, which writes back. -/
theorem covered (i : S8x2048x2048.Idx) :
    ∃ t : Fin cfg0.N, (cfg0.win 2).flush t = true ∧ i ∈ ((cfg0.win 2).blk t).view.set := by
  have h0 : (i 0).val < 8 := (i 0).isLt
  have h1 : (i 1).val < 2048 := (i 1).isLt
  have h2 : (i 2).val < 2048 := (i 2).isLt
  obtain ⟨t, ht⟩ : ∃ t : Fin cfg0.N, t.val = 2 * (i 0).val + (i 1).val / 1024 :=
    ⟨⟨2 * (i 0).val + (i 1).val / 1024, lt_of_lt_of_eq (by omega : 2 * (i 0).val + (i 1).val / 1024 < 16) (show cfg0.N = 16 from N_0).symm⟩, rfl⟩
  obtain ⟨-, -, -, -, -, -, e0, e1, e2⟩ := index_facts t
  refine ⟨t, flush0_2 t, ?_⟩
  rw [mem_block]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1024 ≤ (i 1).val ∧ (i 1).val < win0_2.index t (1 : Fin 3) * 1024 + 1024
    omega
  | ⟨2, _⟩ =>
    show win0_2.index t (2 : Fin 3) * 2048 ≤ (i 2).val ∧ (i 2).val < win0_2.index t (2 : Fin 3) * 2048 + 2048
    omega

/-! ## The array after the run, and the run -/

/-- After the run the result array holds the cosine array of the arguments. -/
theorem final (c : Dev nD) :
    (dats m 0 c).arrAt 2 cfg0.N = Cert.Cosine.cosine (first m c) (second m c) :=
  (dats m 0 c).arrAt_eq_of_cover 2 (Cert.Cosine.cosine (first m c) (second m c)) (fun t _ => flushed_eq m c t) covered

/-- The kernel's run: every weakly fair execution terminates with the result array at the cosine array of the argument
    arrays as launched, and the arguments unchanged. -/
theorem run : θ_run defs (onTc (τ := τ) (main (F := Ideal))) ⟨m, fun _ => 0, ρ⟩ fun r => ∀ c : Dev nD,
      r.2.mem ((c : Thread nD τ).loc main_v0)
        = Cert.Cosine.cosine (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Blocks

end
-- ==== Proof.Reference.lean ====
/-
  The reference computes the cosine-similarity array.

  Its host program squares each argument, sums the squares of every row (from the float zero, which is the real zero),
  bounds the sums below by eps, takes the reciprocal square root, spreads it back over the row and multiplies; then one
  batched product contracts the 128 positions of row r of the first normalised argument with row j of the second. Read one
  operation at a time (the generated read-at-an-index lemmas) entry (b, r, j) is the sum over the 128 positions of the
  two unit-length rows' entries: the specification's `cosine`.
-/
import proofs.«113276_j15530601742895_2_alg».proof.Proof.Gen.ReferenceIdeal.Read
import proofs.«113276_j15530601742895_2_alg».proof.Proof.Spec

noncomputable section

open scoped BigOperators

namespace Cert.Cosine.Reference

open Cert.ReferenceIdeal Cert.ReferenceIdeal.Read Idealize.ShloMosaic Idealize.ShloMosaic.ValueIdx

/-- The first argument normalised by the host, at (b, r, d): entry d of the unit-length row r of matrix b. -/
theorem normalized_first (x0 : (⟨S8x2048x128, .f32⟩ : BufTy).Contents (Elt Ideal)) (b : Fin 8) (r : Fin 2048) (d : Fin 128) :
    val_main_v7 (F := Ideal) x0 (ix3 b r d) = Cert.Cosine.unitRow x0 b r d := by
  have e : ∀ k : Fin 128, idx_main_v1 (idx_main_v2 (idx_main_v6 (ix3 b r d))) k = ix3 b r k := fun k =>
    funext fun a => Fin.ext (by match a with | ⟨0, _⟩ => rfl | ⟨1, _⟩ => rfl | ⟨2, _⟩ => rfl)
  rw [val_main_v7_apply, val_main_v6_apply, val_main_v5_apply, val_main_v4_apply, val_main_v2_apply, val_main_v3_apply,
    val_main_cst_0_apply, val_main_v1_apply, val_main_cst_apply]
  simp only [val_main_v0_apply, e, Ideal.mulf_def, Ideal.maximumf_def, Ideal.hostUnary_rsqrt_def, Ideal.ofBits_def,
    Ideal.ofBits_zero_f32, zero_add]
  rfl

/-- The second argument normalised by the host, at (b, j, d): entry d of the unit-length row j of matrix b. -/
theorem normalized_second (x1 : (⟨S8x2048x128, .f32⟩ : BufTy).Contents (Elt Ideal)) (b : Fin 8) (j : Fin 2048) (d : Fin 128) :
    val_main_v15 (F := Ideal) x1 (ix3 b j d) = Cert.Cosine.unitRow x1 b j d := by
  have e : ∀ k : Fin 128, idx_main_v9 (idx_main_v10 (idx_main_v14 (ix3 b j d))) k = ix3 b j k := fun k =>
    funext fun a => Fin.ext (by match a with | ⟨0, _⟩ => rfl | ⟨1, _⟩ => rfl | ⟨2, _⟩ => rfl)
  rw [val_main_v15_apply, val_main_v14_apply, val_main_v13_apply, val_main_v12_apply, val_main_v10_apply, val_main_v11_apply,
    val_main_cst_2_apply, val_main_v9_apply, val_main_cst_1_apply]
  simp only [val_main_v8_apply, e, Ideal.mulf_def, Ideal.maximumf_def, Ideal.hostUnary_rsqrt_def, Ideal.ofBits_def,
    Ideal.ofBits_zero_f32, zero_add]
  rfl

/-- The reference's result is the cosine-similarity array of its two arguments. -/
theorem result_eq (x0 x1 : (⟨S8x2048x128, .f32⟩ : BufTy).Contents (Elt Ideal)) :
    val_main_v16 (F := Ideal) x0 x1 = Cert.Cosine.cosine x0 x1 := by
  funext i
  obtain ⟨b, r, j, rfl⟩ : ∃ (b : Fin 8) (r : Fin 2048) (j : Fin 2048), i = ix3 b r j := ⟨i 0, i 1, i 2, eq_ix3 i⟩
  rw [val_main_v16_apply]
  show _ = ∑ d : Fin 128, Cert.Cosine.unitRow x0 b r d * Cert.Cosine.unitRow x1 b j d
  refine Finset.sum_congr rfl fun k _ => ?_
  have el : lidx_main_v16 (ix3 b r j) k = ix3 b r k :=
    funext fun a => Fin.ext (by match a with | ⟨0, _⟩ => rfl | ⟨1, _⟩ => rfl | ⟨2, _⟩ => rfl)
  have er : ridx_main_v16 (ix3 b r j) k = ix3 b j k :=
    funext fun a => Fin.ext (by match a with | ⟨0, _⟩ => rfl | ⟨1, _⟩ => rfl | ⟨2, _⟩ => rfl)
  rw [el, er, normalized_first, normalized_second]

end Cert.Cosine.Reference

end
-- ==== Proof.lean ====
/-
  Cosine similarity of all row pairs, batch by batch: the kernel against its reference.

  Both programs take x, y : f32[8, 2048, 128] and return f32[8, 2048, 2048]. Every row of every matrix is scaled to unit
  length — multiplied by rsqrt (max (sum of the row's squares, eps)) with one shared float eps — and entry (b, r, j) of the
  result is the inner product over the 128 positions of the scaled row r of x[b] with the scaled row j of y[b]
  (Proof/Spec.lean states this function once, over literal shapes).

  The reference computes it with host operations and one batched product (Proof/Reference.lean). The kernel walks a grid of
  8 batches × 2 row blocks of 1024 rows; at a batch's first row block it scales the batch's 2048 rows of y, keeps them
  (in the narrower float format, a change that is the identity at the extended reals) in a scratch buffer that survives to
  the batch's second row block, and at every point multiplies its 1024 scaled rows of x against the kept rows, contracting
  the last axis of both. Proof/Pieces.lean and Proof/Carry.lean read what each point leaves in the scratch and in the
  output block; Proof/Payload.lean reads the two stored values at an entry; Proof/Blocks.lean shows the scratch holds the
  batch's unit-length rows of y after every point, that each point writes back its block of the cosine array, and that the
  sixteen blocks tile the array.

  The two sides are the same sums of the same products: no rearrangement beyond the order of a finite sum is involved, so
  the precondition (finite inputs) is never opened. The idealization rewrote nothing in the kernel, so there is nothing
  to preserve beyond reading the same text at the extended reals.
-/
import proofs.«113276_j15530601742895_2_alg».proof.Defs
import proofs.«113276_j15530601742895_2_alg».proof.Proof.Gen.Kernel
import proofs.«113276_j15530601742895_2_alg».proof.Proof.Gen.Kernel.Frame
import proofs.«113276_j15530601742895_2_alg».proof.Proof.Gen.KernelIdeal
import proofs.«113276_j15530601742895_2_alg».proof.Proof.Gen.KernelIdeal.Frame
import proofs.«113276_j15530601742895_2_alg».proof.Proof.Gen.KernelIdeal.Value
import proofs.«113276_j15530601742895_2_alg».proof.Proof.Gen.ReferenceIdeal
import proofs.«113276_j15530601742895_2_alg».proof.Proof.Gen.ReferenceIdeal.Run
import proofs.«113276_j15530601742895_2_alg».proof.Proof.Gen.ReferenceIdeal.Read
import proofs.«113276_j15530601742895_2_alg».proof.Proof.Gen.Pre_finite_inputs
import proofs.«113276_j15530601742895_2_alg».proof.Proof.Blocks
import proofs.«113276_j15530601742895_2_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- At the extended reals the kernel's result array ends at the cosine array of its arguments (Proof/Blocks.lean) and the
    reference's at the cosine array of its own (Proof/Reference.lean); the arguments agree. -/
theorem algebraic : Cert.algebraic_KernelIdeal_ReferenceIdeal := by
  intro m ρ m' ρ' _ hagree
  refine ⟨fun c => Cert.Cosine.cosine (m ((c : Thread Cert.KernelIdeal.nD Cert.KernelIdeal.τ).loc Cert.KernelIdeal.main_arg0))
    (m ((c : Thread Cert.KernelIdeal.nD Cert.KernelIdeal.τ).loc Cert.KernelIdeal.main_arg1)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.Cosine.Reference.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
